-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048x4096 : S_.BroadcastsInDim S16x2048x4096 (![] : Fin 0 → Fin S16x2048x4096.rank)
  reducesTo_S16x2048x4096_S_d0_1_2 : S16x2048x4096.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16384x2048 .f32) (main_arg1 : FVec F S16x2048x4096 .f32) (main_arg2 : FVec F S16x2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048x4096 .f32 := Host.absf main_arg1
  let main_cst_0 : FVec F S_ .f32 := constant S_ .f32 0x7F800000#32
  let main_v5 : FVec F S16x2048x4096 .f32 := broadcastInDim S16x2048x4096 ![] bcast_S_S16x2048x4096 main_cst_0
  let main_v6 : IVec S16x2048x4096 1 := cmpf .olt main_v4 main_v5
  let main_c_1 : IVec S_ 1 := constantI S_ 1 1#1
  let main_v7 : IVec S_ 1 := (fun x v => Host.reduce IntOp.andi x v reducesTo_S16x2048x4096_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S16x1024x2048 : Shape := ⟨3, ![16, 1024, 2048]⟩
abbrev S1x128x2048 : Shape := ⟨3, ![1, 128, 2048]⟩
abbrev S1x2048x4096 : Shape := ⟨3, ![1, 2048, 4096]⟩
abbrev S1x2048x2048 : Shape := ⟨3, ![1, 2048, 2048]⟩
abbrev S128x2048 : Shape := ⟨2, ![128, 2048]⟩
abbrev S2048x4096 : Shape := ⟨2, ![2048, 4096]⟩
abbrev S128x4096 : Shape := ⟨2, ![128, 4096]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16x2048x4096, .f32⟩
  | .hbm, ⟨2, _⟩ => ⟨S16x2048x2048, .f32⟩
  | .hbm, ⟨3, _⟩ => ⟨S16x1024x2048, .f32⟩
  | .hbm, ⟨4, _⟩ => ⟨S16x2048x4096, .bf16⟩
  | .hbm, ⟨5, _⟩ => ⟨S16x2048x2048, .bf16⟩
  | .hbm, ⟨6, _⟩ => ⟨S16x1024x2048, .f32⟩
  | .hbm, ⟨7, _⟩ => ⟨S16384x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x4096, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x128x2048, .f32⟩
  | .local _ .vmem, ⟨6, _⟩ => ⟨S1x128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x2048_S16x1024x2048 : S16384x2048.ShapeCasts S16x1024x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  slices_S128x4096_o0_0_S128x2048 : S128x4096.Slices ![0, 0] S128x2048
  slices_S128x4096_o0_2048_S128x2048 : S128x4096.Slices ![0, 2048] S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S128x2048_S1x128x2048 : S128x2048.ShapeCasts S1x128x2048
  shapeCasts_S16x1024x2048_S16384x2048 : S16x1024x2048.ShapeCasts S16384x2048
  dot_S128x2048_S2048x4096_S128x4096_1_0_0_1_n_n_wf : DotDims.WF S128x2048 S2048x4096 S128x4096 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S16x1024x2048.size a
  hwx0_0 : ∀ i : grid0.Coords, EltTy.bits .f32 = 32 ∨ (Rect.block (s := S16x1024x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x4096.size a ≤ S16x2048x4096.size a
  hwx0_1 : ∀ i : grid0.Coords, EltTy.bits .bf16 = 32 ∨ (Rect.block (s := S16x2048x4096) S1x2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S16x2048x2048.size a
  hwx0_2 : ∀ i : grid0.Coords, EltTy.bits .bf16 = 32 ∨ (Rect.block (s := S16x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S16x1024x2048.size a
  hwx0_3 : ∀ i : grid0.Coords, EltTy.bits .f32 = 32 ∨ (Rect.block (s := S16x1024x2048) S1x128x2048.size (cc0_transform_3 i) (hinb0_3 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S16x1024x2048 : Shape := ⟨3, ![16, 1024, 2048]⟩
abbrev S16x1024x4096 : Shape := ⟨3, ![16, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048x4096, .f32⟩
  | .hbm, ⟨2, _⟩ => ⟨S16x2048x2048, .f32⟩
  | .hbm, ⟨3, _⟩ => ⟨S16x1024x2048, .f32⟩
  | .hbm, ⟨4, _⟩ => ⟨S16x1024x4096, .f32⟩
  | .hbm, ⟨5, _⟩ => ⟨S16x1024x2048, .f32⟩
  | .hbm, ⟨6, _⟩ => ⟨S16x1024x2048, .f32⟩
  | .hbm, ⟨7, _⟩ => ⟨S16x1024x2048, .f32⟩
  | .hbm, ⟨8, _⟩ => ⟨S16x1024x2048, .f32⟩
  | .hbm, ⟨9, _⟩ => ⟨S_, .f32⟩
  | .hbm, ⟨10, _⟩ => ⟨S16x1024x2048, .f32⟩
  | .hbm, ⟨11, _⟩ => ⟨S16x1024x2048, .f32⟩
  | .hbm, ⟨12, _⟩ => ⟨S_, .f32⟩
  | .hbm, ⟨13, _⟩ => ⟨S16x1024x2048, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S16x1024x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S16384x2048_S16x1024x2048 : S16384x2048.ShapeCasts S16x1024x2048
  slices_S16x1024x4096_S16x1024x2048_0_0_0 : S16x1024x4096.Slices ![0, 0, 0] S16x1024x2048
  slices_S16x1024x4096_S16x1024x2048_0_0_2048 : S16x1024x4096.Slices ![0, 0, 2048] S16x1024x2048
  bcast_S_S16x1024x2048 : S_.BroadcastsInDim S16x1024x2048 (![] : Fin 0 → Fin S16x1024x2048.rank)
  shapeCasts_S16x1024x2048_S16384x2048 : S16x1024x2048.ShapeCasts S16384x2048
  dot_S16x1024x2048_S16x2048x4096_S16x1024x4096_2_1_1_2_0_0_wf : DotDims.WF S16x1024x2048 S16x2048x4096 S16x1024x4096 [2] [1] [1] [2] [0] [0]
  dot_S16x1024x2048_S16x2048x2048_S16x1024x2048_2_1_1_2_0_0_wf : DotDims.WF S16x1024x2048 S16x2048x2048 S16x1024x2048 [2] [1] [1] [2] [0] [0]

variable [Facts₀]

def dot_S16x1024x2048_S16x2048x4096_S16x1024x4096_2_1_1_2_0_0 : DotDims S16x1024x2048 S16x2048x4096 S16x1024x4096 where
  lhsContracting := [2]
  rhsContracting := [1]
  lhsNonContracting := [1]
  rhsNonContracting := [2]
  lhsBatch := [0]
  rhsBatch := [0]
  wf := dot_S16x1024x2048_S16x2048x4096_S16x1024x4096_2_1_1_2_0_0_wf
def dot_S16x1024x2048_S16x2048x2048_S16x1024x2048_2_1_1_2_0_0 : DotDims S16x1024x2048 S16x2048x2048 S16x1024x2048 where
  lhsContracting := [2]
  rhsContracting := [1]
  lhsNonContracting := [1]
  rhsNonContracting := [2]
  lhsBatch := [0]
  rhsBatch := [0]
  wf := dot_S16x1024x2048_S16x2048x2048_S16x1024x2048_2_1_1_2_0_0_wf

class Facts : Prop extends Facts₀ where

variable [Facts]
-- ==== Proof.SwigluRow.lean ====
/-
  The mathematics of one mixture-of-experts SwiGLU layer, stated once over plain index families.

  A token row `x` (2048 features) meets one expert's two weight matrices: `gu` (2048 × 4096, the gate columns
  first and the up columns after them) and `dn` (2048 × 2048).  With
      gate i = ∑ k, x k · gu k i          up i = ∑ k, x k · gu k (2048 + i)
  the row's result at feature `h` is
      ∑ i, (up i · (gate i · σ (gate i))) · dn i h,
  σ the logistic function on the extended reals.  Every sum is a finite sum of extended reals; nothing here asks
  the entries to be finite, because both programs compute literally this expression.

  `swiglu` is the layer on the arrays: token `(e, r)` of the activations `[16, 1024, 2048]` goes through expert `e`.
-/
import Idealize.ShloMosaic.PureOps.Ideal
import Idealize.ShloMosaic.Lib.ValueIdx

noncomputable section

open scoped BigOperators

namespace Cert.Swiglu

open Idealize.ShloMosaic Idealize.ShloMosaic.ValueIdx

/-- Column `i` of the gate half of the fused gate/up matrix. -/
abbrev gateCol (i : Fin 2048) : Fin 4096 := ⟨i.val, by omega⟩
/-- Column `i` of the up half: the gate half's 2048 columns come first. -/
abbrev upCol (i : Fin 2048) : Fin 4096 := ⟨2048 + i.val, by omega⟩

/-- One token row through one expert: project to gate and up, gate the up projection by `gate · σ(gate)`, project down. -/
def row (x : Fin 2048 → EReal) (gu : Fin 2048 → Fin 4096 → EReal) (dn : Fin 2048 → Fin 2048 → EReal) (h : Fin 2048) : EReal :=
  ∑ i : Fin 2048, ((∑ k : Fin 2048, x k * gu k (upCol i))
      * ((∑ k : Fin 2048, x k * gu k (gateCol i)) * Ideal.logistic (∑ k : Fin 2048, x k * gu k (gateCol i)))) * dn i h

/-- The layer at token `(e, r)` and output feature `h`: row `(e, r)` of the activations through expert `e`'s matrices. -/
def swigluAt (X : (⟨3, ![16, 1024, 2048]⟩ : Shape).Idx → EReal) (GU : (⟨3, ![16, 2048, 4096]⟩ : Shape).Idx → EReal)
    (DN : (⟨3, ![16, 2048, 2048]⟩ : Shape).Idx → EReal) (e : Fin 16) (r : Fin 1024) (h : Fin 2048) : EReal :=
  row (fun k => X (ix3 e r k)) (fun k f => GU (ix3 e k f)) (fun i h' => DN (ix3 e i h')) h

/-- The layer as one function of the three arrays, index by index. -/
def swiglu (X : (⟨3, ![16, 1024, 2048]⟩ : Shape).Idx → EReal) (GU : (⟨3, ![16, 2048, 4096]⟩ : Shape).Idx → EReal)
    (DN : (⟨3, ![16, 2048, 2048]⟩ : Shape).Idx → EReal) : (⟨3, ![16, 1024, 2048]⟩ : Shape).Idx → EReal :=
  fun j => swigluAt X GU DN (j 0) (j 1) (j 2)

theorem swiglu_ix3 (X : (⟨3, ![16, 1024, 2048]⟩ : Shape).Idx → EReal) (GU : (⟨3, ![16, 2048, 4096]⟩ : Shape).Idx → EReal)
    (DN : (⟨3, ![16, 2048, 2048]⟩ : Shape).Idx → EReal) (e : Fin 16) (r : Fin 1024) (h : Fin 2048) :
    swiglu X GU DN (ix3 e r h) = swigluAt X GU DN e r h := rfl

end Cert.Swiglu

end
-- ==== Proof.ReferenceValue.lean ====
/-
  The reference computes the layer: its batched product, split, gated activation and second batched product,
  read at one element, are `Swiglu.swiglu` of the reshaped tokens and the two weight arrays.

  The first batched product at `(e, r, f)` is the sum over the contracted coordinate of token row `(e, r)` against
  column `f` of expert `e`'s fused matrix; the two slices pick the gate column `i` and the up column `2048 + i`;
  the reference spells `silu g` as `g · (1 / (1 + e^(−g)))`, which on the extended reals IS `g · σ(g)` (the word `0x3F800000`
  denotes 1); the second batched product sums against expert `e`'s down matrix.
-/
import proofs.«136551_j37589553774969_2_alg».proof.Proof.Gen.ReferenceIdeal.Read
import proofs.«136551_j37589553774969_2_alg».proof.Proof.SwigluRow
import Idealize.ShloMosaic.PureOps.IdealRules

noncomputable section

open scoped BigOperators

namespace Cert.ReferenceIdeal.RefValue

open Cert.ReferenceIdeal Cert.ReferenceIdeal.Read Idealize.ShloMosaic Idealize.ShloMosaic.ValueIdx

/-- The f32 word of `1.0` denotes the extended real 1. -/
theorem one_f32 : Ideal.ofBits .f32 0x3F800000#32 = 1 := IdealRules.sign_bit.ideal_onePat .f32

/-- The first batched product at `(e, r, f)`. -/
theorem gate_up_apply (x0 : (⟨S16384x2048, .f32⟩ : BufTy).Contents (Elt Ideal)) (x1 : (⟨S16x2048x4096, .f32⟩ : BufTy).Contents (Elt Ideal))
    (e : Fin 16) (r : Fin 1024) (f : Fin 4096) :
    val_main_v1 (F := Ideal) x0 x1 (ix3 e r f) = ∑ k : Fin 2048, val_main_v0 (F := Ideal) x0 (ix3 e r k) * x1 (ix3 e k f) := by
  rw [val_main_v1_apply]
  refine Finset.sum_congr rfl fun k _ => ?_
  have hl : lidx_main_v1 (ix3 e r f) k = ix3 e r k :=
    funext fun a => Fin.ext (by match a with | ⟨0, _⟩ => rfl | ⟨1, _⟩ => rfl | ⟨2, _⟩ => rfl)
  have hr : ridx_main_v1 (ix3 e r f) k = ix3 e k f :=
    funext fun a => Fin.ext (by match a with | ⟨0, _⟩ => rfl | ⟨1, _⟩ => rfl | ⟨2, _⟩ => rfl)
  rw [hl, hr]

/-- The gated activation at `(e, r, i)`: `up · (gate · σ(gate))`. -/
theorem act_apply (x0 : (⟨S16384x2048, .f32⟩ : BufTy).Contents (Elt Ideal)) (x1 : (⟨S16x2048x4096, .f32⟩ : BufTy).Contents (Elt Ideal))
    (e : Fin 16) (r : Fin 1024) (i : Fin 2048) :
    val_main_v5 (F := Ideal) x0 x1 (ix3 e r i)
      = (∑ k : Fin 2048, val_main_v0 (F := Ideal) x0 (ix3 e r k) * x1 (ix3 e k (Cert.Swiglu.upCol i)))
        * ((∑ k : Fin 2048, val_main_v0 (F := Ideal) x0 (ix3 e r k) * x1 (ix3 e k (Cert.Swiglu.gateCol i)))
          * Ideal.logistic (∑ k : Fin 2048, val_main_v0 (F := Ideal) x0 (ix3 e r k) * x1 (ix3 e k (Cert.Swiglu.gateCol i)))) := by
  have h2 : idx_main_v2 (ix3 e r i) = ix3 e r (Cert.Swiglu.gateCol i) :=
    funext fun a => Fin.ext (by match a with | ⟨0, _⟩ => rfl | ⟨1, _⟩ => rfl | ⟨2, _⟩ => rfl)
  have h3 : idx_main_v3 (ix3 e r i) = ix3 e r (Cert.Swiglu.upCol i) :=
    funext fun a => Fin.ext (by match a with | ⟨0, _⟩ => rfl | ⟨1, _⟩ => rfl | ⟨2, _⟩ => rfl)
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v2_apply, h2, h3, gate_up_apply, gate_up_apply]
  simp only [Ideal.mulf_def, Ideal.hostDivf_def, Ideal.addf_def, Ideal.hostUnary_exp_def, Ideal.hostNegf_def, Ideal.negf_def,
    Ideal.ofBits_def, one_f32, Ideal.logistic]

/-- The second batched product: the whole layer before the final reshape. -/
theorem layer_eq (x0 : (⟨S16384x2048, .f32⟩ : BufTy).Contents (Elt Ideal)) (x1 : (⟨S16x2048x4096, .f32⟩ : BufTy).Contents (Elt Ideal))
    (x2 : (⟨S16x2048x2048, .f32⟩ : BufTy).Contents (Elt Ideal)) :
    val_main_v6 (F := Ideal) x0 x1 x2 = Cert.Swiglu.swiglu (val_main_v0 (F := Ideal) x0) x1 x2 := by
  funext j
  obtain ⟨e, r, h, rfl⟩ : ∃ (e : Fin 16) (r : Fin 1024) (h : Fin 2048), j = ix3 e r h := ⟨j 0, j 1, j 2, eq_ix3 j⟩
  rw [Cert.Swiglu.swiglu_ix3, val_main_v6_apply]
  unfold Cert.Swiglu.swigluAt Cert.Swiglu.row
  refine Finset.sum_congr rfl fun i _ => ?_
  have hl : lidx_main_v6 (ix3 e r h) i = ix3 e r i :=
    funext fun a => Fin.ext (by match a with | ⟨0, _⟩ => rfl | ⟨1, _⟩ => rfl | ⟨2, _⟩ => rfl)
  have hr : ridx_main_v6 (ix3 e r h) i = ix3 e i h :=
    funext fun a => Fin.ext (by match a with | ⟨0, _⟩ => rfl | ⟨1, _⟩ => rfl | ⟨2, _⟩ => rfl)
  rw [hl, hr, act_apply]

/-- THE REFERENCE'S RESULT: the layer of the reshaped tokens, reshaped back to `[16384, 2048]`. -/
theorem result_eq (x0 : (⟨S16384x2048, .f32⟩ : BufTy).Contents (Elt Ideal)) (x1 : (⟨S16x2048x4096, .f32⟩ : BufTy).Contents (Elt Ideal))
    (x2 : (⟨S16x2048x2048, .f32⟩ : BufTy).Contents (Elt Ideal)) :
    val_main_v7 (F := Ideal) x0 x1 x2
      = shapeCast S16384x2048
          (Cert.Swiglu.swiglu (shapeCast S16x1024x2048 x0 Facts₀.shapeCasts_S16384x2048_S16x1024x2048) x1 x2)
          Facts₀.shapeCasts_S16x1024x2048_S16384x2048 := by
  unfold val_main_v7
  rw [layer_eq]
  rfl

end Cert.ReferenceIdeal.RefValue

end
-- ==== Proof.KernelPayload.lean ====
/-
  What the kernel body stores, read at one element.

  The body loads a block of 128 token rows `x0`, one expert's fused gate/up matrix `x1` and its down matrix `x2`
  (each with a leading unit axis), multiplies the rows into the fused matrix, cuts the product into its gate half
  (columns 0 … 2047) and its up half (columns 2048 … 4095), forms `up · (gate · σ(gate))`, and multiplies by the
  down matrix.  The format changes on the way into each product are the identity on extended reals, and a matrix
  product into a zero accumulator is the plain sum over the contracted coordinate.  So the stored element `(0, r, h)`
  is `Swiglu.row` of row `r` of the token block and the two matrices.
-/
import proofs.«136551_j37589553774969_2_alg».proof.Proof.Gen.KernelIdeal.Skeleton
import proofs.«136551_j37589553774969_2_alg».proof.Proof.SwigluRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first product's dimension numbers: rows × contraction by contraction × columns, 128 × 2048 by 2048 × 4096. -/
abbrev D1 : DotDims S128x2048 S2048x4096 S128x4096 := dot_S128x2048_S2048x4096_S128x4096_1_0_0_1_n_n
/-- The second product's: 128 × 2048 by 2048 × 2048. -/
abbrev D2 : DotDims S128x2048 S2048x2048 S128x2048 := dot_S128x2048_S2048x2048_S128x2048_1_0_0_1_n_n

/-! ## The operand indices of the two products, coordinate by coordinate

At output element `(r, f)` and contracted coordinate `k` the left operand is read at `(r, k)` and the right at `(k, f)`. -/

theorem d1_lhs_0 (j : S128x4096.Idx) (q : D1.contr.Idx) : (D1.lhsIdx j q 0).val = (j 0).val := by
  unfold DotDims.lhsIdx
  rw [dif_neg (show ¬(0 : Fin S128x2048.rank) ∈ D1.lhsBatch by decide), dif_pos (show (0 : Fin S128x2048.rank) ∈ D1.lhsNonContracting by decide)]
  rfl
theorem d1_lhs_1 (j : S128x4096.Idx) (q : D1.contr.Idx) : (D1.lhsIdx j q 1).val = (q ⟨0, by decide⟩).val :=
  D1.lhsIdx_val_of_single rfl j q
theorem d1_rhs_0 (j : S128x4096.Idx) (q : D1.contr.Idx) : (D1.rhsIdx j q 0).val = (q ⟨0, by decide⟩).val :=
  D1.rhsIdx_val_of_single rfl j q
theorem d1_rhs_1 (j : S128x4096.Idx) (q : D1.contr.Idx) : (D1.rhsIdx j q 1).val = (j 1).val := by
  unfold DotDims.rhsIdx
  rw [dif_neg (show ¬(1 : Fin S2048x4096.rank) ∈ D1.rhsBatch by decide), dif_pos (show (1 : Fin S2048x4096.rank) ∈ D1.rhsNonContracting by decide)]
  rfl

theorem d2_lhs_0 (j : S128x2048.Idx) (q : D2.contr.Idx) : (D2.lhsIdx j q 0).val = (j 0).val := by
  unfold DotDims.lhsIdx
  rw [dif_neg (show ¬(0 : Fin S128x2048.rank) ∈ D2.lhsBatch by decide), dif_pos (show (0 : Fin S128x2048.rank) ∈ D2.lhsNonContracting by decide)]
  rfl
theorem d2_lhs_1 (j : S128x2048.Idx) (q : D2.contr.Idx) : (D2.lhsIdx j q 1).val = (q ⟨0, by decide⟩).val :=
  D2.lhsIdx_val_of_single rfl j q
theorem d2_rhs_0 (j : S128x2048.Idx) (q : D2.contr.Idx) : (D2.rhsIdx j q 0).val = (q ⟨0, by decide⟩).val :=
  D2.rhsIdx_val_of_single rfl j q
theorem d2_rhs_1 (j : S128x2048.Idx) (q : D2.contr.Idx) : (D2.rhsIdx j q 1).val = (j 1).val := by
  unfold DotDims.rhsIdx
  rw [dif_neg (show ¬(1 : Fin S2048x2048.rank) ∈ D2.rhsBatch by decide), dif_pos (show (1 : Fin S2048x2048.rank) ∈ D2.rhsNonContracting by decide)]
  rfl

/-! ## The two matrix products at an element -/

/-- The first product into the zero accumulator, at `(r, f)`: the sum over the 2048 contracted coordinates of row `r` against column `f`. -/
theorem matmul_gate_up_apply (a : FVec Ideal S128x2048 .bf16) (b : FVec Ideal S2048x4096 .bf16) (r : Fin 128) (f : Fin 4096) :
    matmul D1 none a b (constant S128x4096 .f32 0x00000000#32) (ix2 r f)
      = ∑ k : Fin 2048, a (ix2 r k) * b (ix2 k f) := by
  refine (Ideal.matmul_constant_zero_apply D1 none a b (ix2 r f)).trans ?_
  rw [← Equiv.sum_comp (contrEquiv1 D1 2048 rfl rfl).symm]
  refine Finset.sum_congr rfl fun k _ => ?_
  have hk := contrEquiv1_symm_val D1 2048 rfl rfl k
  have el : D1.lhsIdx (ix2 r f) ((contrEquiv1 D1 2048 rfl rfl).symm k) = ix2 r k := funext fun ax => Fin.ext (by
    match ax with
    | ⟨0, _⟩ => exact d1_lhs_0 _ _
    | ⟨1, _⟩ => exact (d1_lhs_1 _ _).trans hk)
  have er : D1.rhsIdx (ix2 r f) ((contrEquiv1 D1 2048 rfl rfl).symm k) = ix2 k f := funext fun ax => Fin.ext (by
    match ax with
    | ⟨0, _⟩ => exact (d1_rhs_0 _ _).trans hk
    | ⟨1, _⟩ => exact d1_rhs_1 _ _)
  rw [el, er]

/-- The second product into the zero accumulator, at `(r, h)`. -/
theorem matmul_down_apply (a : FVec Ideal S128x2048 .bf16) (b : FVec Ideal S2048x2048 .bf16) (r : Fin 128) (f : Fin 2048) :
    matmul D2 none a b (constant S128x2048 .f32 0x00000000#32) (ix2 r f)
      = ∑ k : Fin 2048, a (ix2 r k) * b (ix2 k f) := by
  refine (Ideal.matmul_constant_zero_apply D2 none a b (ix2 r f)).trans ?_
  rw [← Equiv.sum_comp (contrEquiv1 D2 2048 rfl rfl).symm]
  refine Finset.sum_congr rfl fun k _ => ?_
  have hk := contrEquiv1_symm_val D2 2048 rfl rfl k
  have el : D2.lhsIdx (ix2 r f) ((contrEquiv1 D2 2048 rfl rfl).symm k) = ix2 r k := funext fun ax => Fin.ext (by
    match ax with
    | ⟨0, _⟩ => exact d2_lhs_0 _ _
    | ⟨1, _⟩ => exact (d2_lhs_1 _ _).trans hk)
  have er : D2.rhsIdx (ix2 r f) ((contrEquiv1 D2 2048 rfl rfl).symm k) = ix2 k f := funext fun ax => Fin.ext (by
    match ax with
    | ⟨0, _⟩ => exact (d2_rhs_0 _ _).trans hk
    | ⟨1, _⟩ => exact d2_rhs_1 _ _)
  rw [el, er]

/-! ## The gated activation -/

/-- The fused gate/up product of a token block and the fused matrix. -/
def gateUp (a : FVec Ideal S128x2048 .bf16) (b : FVec Ideal S2048x4096 .bf16) : FVec Ideal S128x4096 .f32 :=
  matmul D1 none a b (constant S128x4096 .f32 0x00000000#32)

/-- Its gate half: columns 0 … 2047. -/
def gate (a : FVec Ideal S128x2048 .bf16) (b : FVec Ideal S2048x4096 .bf16) : FVec Ideal S128x2048 .f32 :=
  extractStridedSlice S128x2048 ![0, 0] (gateUp a b) Facts₀.slices_S128x4096_o0_0_S128x2048
/-- Its up half: columns 2048 … 4095. -/
def up (a : FVec Ideal S128x2048 .bf16) (b : FVec Ideal S2048x4096 .bf16) : FVec Ideal S128x2048 .f32 :=
  extractStridedSlice S128x2048 ![0, 2048] (gateUp a b) Facts₀.slices_S128x4096_o0_2048_S128x2048

/-- `up · (gate · σ(gate))`, elementwise. -/
def act (a : FVec Ideal S128x2048 .bf16) (b : FVec Ideal S2048x4096 .bf16) : FVec Ideal S128x2048 .bf16 :=
  mulf (up a b) (mulf (gate a b) (logistic (gate a b)))

theorem gate_apply (a : FVec Ideal S128x2048 .bf16) (b : FVec Ideal S2048x4096 .bf16) (r : Fin 128) (i : Fin 2048) :
    gate a b (ix2 r i) = ∑ k : Fin 2048, a (ix2 r k) * b (ix2 k (Cert.Swiglu.gateCol i)) :=
  (slice2_axis1_apply 0 (gateUp a b) Facts₀.slices_S128x4096_o0_0_S128x2048 r i (Cert.Swiglu.gateCol i) (Nat.zero_add _).symm).trans
    (matmul_gate_up_apply a b r _)

theorem up_apply (a : FVec Ideal S128x2048 .bf16) (b : FVec Ideal S2048x4096 .bf16) (r : Fin 128) (i : Fin 2048) :
    up a b (ix2 r i) = ∑ k : Fin 2048, a (ix2 r k) * b (ix2 k (Cert.Swiglu.upCol i)) :=
  (slice2_axis1_apply 2048 (gateUp a b) Facts₀.slices_S128x4096_o0_2048_S128x2048 r i (Cert.Swiglu.upCol i) rfl).trans
    (matmul_gate_up_apply a b r _)

theorem act_apply (a : FVec Ideal S128x2048 .bf16) (b : FVec Ideal S2048x4096 .bf16) (r : Fin 128) (i : Fin 2048) :
    act a b (ix2 r i) = (∑ k : Fin 2048, a (ix2 r k) * b (ix2 k (Cert.Swiglu.upCol i)))
      * ((∑ k : Fin 2048, a (ix2 r k) * b (ix2 k (Cert.Swiglu.gateCol i)))
        * Ideal.logistic (∑ k : Fin 2048, a (ix2 r k) * b (ix2 k (Cert.Swiglu.gateCol i)))) := by
  show up a b (ix2 r i) * (gate a b (ix2 r i) * Ideal.logistic (gate a b (ix2 r i))) = _
  rw [up_apply, gate_apply]

/-! ## The stored value -/

/-- The token block, the fused matrix and the down matrix with their leading unit axes dropped. -/
def rows (x0 : Vec Ideal S1x128x2048 .f32) : FVec Ideal S128x2048 .bf16 := shapeCast S128x2048 x0 Facts₀.shapeCasts_S1x128x2048_S128x2048
def fused (x1 : Vec Ideal S1x2048x4096 .bf16) : FVec Ideal S2048x4096 .bf16 := shapeCast S2048x4096 x1 Facts₀.shapeCasts_S1x2048x4096_S2048x4096
def down (x2 : Vec Ideal S1x2048x2048 .bf16) : FVec Ideal S2048x2048 .bf16 := shapeCast S2048x2048 x2 Facts₀.shapeCasts_S1x2048x2048_S2048x2048

/-- The body's stored value is the second product of the activation with the down matrix, the blocks' leading unit
    axes dropped on the way in and put back on the way out (the changes of float format are the identity here). -/
theorem pay_eq (x0 : Vec Ideal S1x128x2048 .f32) (x1 : Vec Ideal S1x2048x4096 .bf16) (x2 : Vec Ideal S1x2048x2048 .bf16) :
    k0_pay1 (F := Ideal) x0 x1 x2
      = shapeCast S1x128x2048
          (matmul D2 none (act (rows x0) (fused x1)) (down x2) (constant S128x2048 .f32 0x00000000#32))
          Facts₀.shapeCasts_S128x2048_S1x128x2048 := rfl

/-- THE STORED ELEMENT `(0, r, h)`: row `r` of the token block through the two matrices. -/
theorem pay_apply (x0 : Vec Ideal S1x128x2048 .f32) (x1 : Vec Ideal S1x2048x4096 .bf16) (x2 : Vec Ideal S1x2048x2048 .bf16)
    (u : Fin 1) (r : Fin 128) (h : Fin 2048) :
    k0_pay1 (F := Ideal) x0 x1 x2 (ix3 u r h)
      = Cert.Swiglu.row (fun k => x0 (ix3 (0 : Fin 1) r k)) (fun k f => x1 (ix3 (0 : Fin 1) k f)) (fun i h' => x2 (ix3 (0 : Fin 1) i h')) h := by
  rw [pay_eq]
  refine (shapeCast_ab_1ab_apply _ Facts₀.shapeCasts_S128x2048_S1x128x2048 u r h).trans ?_
  refine (matmul_down_apply _ _ r h).trans ?_
  unfold Cert.Swiglu.row
  refine Finset.sum_congr rfl fun i _ => ?_
  have hd : down x2 (ix2 i h) = x2 (ix3 (0 : Fin 1) i h) := shapeCast_1ab_ab_apply x2 Facts₀.shapeCasts_S1x2048x2048_S2048x2048 i h
  have hr : ∀ k : Fin 2048, rows x0 (ix2 r k) = x0 (ix3 (0 : Fin 1) r k) := fun k => shapeCast_1ab_ab_apply x0 Facts₀.shapeCasts_S1x128x2048_S128x2048 r k
  have hf : ∀ (k : Fin 2048) (f : Fin 4096), fused x1 (ix2 k f) = x1 (ix3 (0 : Fin 1) k f) := fun k f => shapeCast_1ab_ab_apply x1 Facts₀.shapeCasts_S1x2048x4096_S2048x4096 k f
  rw [act_apply, hd]
  simp only [hr, hf]

end Cert.KernelIdeal.Payload

end
-- ==== Proof.KernelArray.lean ====
/-
  From what one grid point writes back to the whole result array.

  The grid has 16 × 8 points; point `(e, b)` stages token rows `128·b … 128·b + 127` of expert `e` (a block
  `[1, 128, 2048]` of the activations `[16, 1024, 2048]`), the whole fused matrix and the whole down matrix of expert `e`,
  and writes back the block of the result at the same place as the token block.  By the element lemma of the
  stored value, what it writes back is that block of `Swiglu.swiglu` of the three arrays as the region finds them.
  The 128 blocks tile the result array (row `ρ` of expert `e` lies in block `(e, ρ / 128)`), so the array ends holding
  `Swiglu.swiglu` of the three arrays, everywhere.

  Around the region the program reshapes the tokens `[16384, 2048] → [16, 1024, 2048]` and changes the weights' float
  format (the identity on extended reals) before it, and reshapes the result back after it.
-/
import proofs.«136551_j37589553774969_2_alg».proof.Proof.Gen.KernelIdeal.Frame
import proofs.«136551_j37589553774969_2_alg».proof.Proof.KernelPayload
import Idealize.ShloMosaic.Lib.StableHlo.Run

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-! ## One block is one block of the layer -/

/-- A stored block against the layer: if the token block is rows `128·q1 …` of expert `q0` and the two matrices are expert
    `q0`'s, the stored element at block index `y` is the layer at the array index `i` under it. -/
theorem block_value (X : S16x1024x2048.Idx → EReal) (GU : S16x2048x4096.Idx → EReal) (DN : S16x2048x2048.Idx → EReal)
    (x0 : Vec Ideal S1x128x2048 .f32) (x1 : Vec Ideal S1x2048x4096 .bf16) (x2 : Vec Ideal S1x2048x2048 .bf16)
    (q0 q1 : Nat) (hq0 : q0 < 16) (hq1 : q1 < 8)
    (h0 : ∀ (r : Fin 128) (k : Fin 2048), x0 (ix3 (0 : Fin 1) r k) = X (ix3 (⟨q0, hq0⟩ : Fin 16) (⟨q1 * 128 + r.val, by omega⟩ : Fin 1024) k))
    (h1 : ∀ (k : Fin 2048) (f : Fin 4096), x1 (ix3 (0 : Fin 1) k f) = GU (ix3 (⟨q0, hq0⟩ : Fin 16) k f))
    (h2 : ∀ (i h : Fin 2048), x2 (ix3 (0 : Fin 1) i h) = DN (ix3 (⟨q0, hq0⟩ : Fin 16) i h))
    (y : S1x128x2048.Idx) (i : S16x1024x2048.Idx)
    (hi0 : (i 0).val = q0) (hi1 : (i 1).val = q1 * 128 + (y 1).val) (hi2 : (i 2).val = (y 2).val) :
    k0_pay1 (F := Ideal) x0 x1 x2 y = Cert.Swiglu.swiglu X GU DN i := by
  obtain ⟨u, r, h, rfl⟩ : ∃ (u : Fin 1) (r : Fin 128) (h : Fin 2048), y = ix3 u r h := ⟨y 0, y 1, y 2, eq_ix3 y⟩
  have hi : i = ix3 (⟨q0, hq0⟩ : Fin 16) (⟨q1 * 128 + r.val, by omega⟩ : Fin 1024) h := funext fun a => Fin.ext (by
    match a with
    | ⟨0, _⟩ => exact hi0
    | ⟨1, _⟩ => exact hi1
    | ⟨2, _⟩ => exact hi2)
  rw [hi, Cert.KernelIdeal.Payload.pay_apply, Cert.Swiglu.swiglu_ix3]
  unfold Cert.Swiglu.swigluAt
  simp only [h0, h1, h2]

/-! ## The index maps, decided over the 128 points -/

/-- Every input block sits where the output block says: same expert, same row block; the matrices whole. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 7 ∧ win0_3.index t (2 : Fin 3) = 0 :=
  (by decide +kernel : ∀ t : Fin grid0.N, _)

/-- Every (expert, row block) is some point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## What a point writes back -/

/-- The layer of the three arrays as the region finds them. -/
abbrev layerV (c : Dev nD) : S16x1024x2048.Idx → EReal :=
  Cert.Swiglu.swiglu (V m c main_v0) (V m c main_v1) (V m c main_v2)

/-- WHAT POINT `t` WRITES BACK is block `t` of the layer. -/
theorem flushed_eq (c : Dev nD) (t : Fin cfg0.N) :
    (dats m 0 c).flushed 3 t = ((cfg0.win 3).blk t).view.read (Elt Ideal) (layerV m c) := by
  show (cfg0.win 3).cut (grid0.coords t) ((dats m 0 c).after 3 t) = _
  rw [after0_3]
  unfold out0_3
  rw [View.canon_unit_zero hz3]
  simp only [View.ld_unit_zero (S := S1x128x2048) hz3, View.ld_unit_zero (S := S1x2048x4096) hz3, View.ld_unit_zero (S := S1x2048x2048) hz3]
  obtain ⟨e00, e01, e02, e10, e11, e12, e20, e21, e22, b0, b1, b2⟩ := idx_facts t
  funext j
  show k0_pay1 (F := Ideal) (iblk m c 0 t) (iblk m c 1 t) (iblk m c 2 t) j = layerV m c (((cfg0.win 3).blk t).view.emb j)
  refine block_value (V m c main_v0) (V m c main_v1) (V m c main_v2) (iblk m c 0 t) (iblk m c 1 t) (iblk m c 2 t)
    (win0_3.index t (0 : Fin 3)) (win0_3.index t (1 : Fin 3)) (by omega) (by omega) ?_ ?_ ?_ j (((cfg0.win 3).blk t).view.emb j) ?_ ?_ ?_
  · intro r k
    show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 128 + 1 * r.val = win0_3.index t (1 : Fin 3) * 128 + r.val; omega
    | ⟨2, _⟩ => show win0_0.index t (2 : Fin 3) * 2048 + 1 * k.val = k.val; omega
  · intro k f
    show V m c main_v1 (((cfg0.win 1).blk t).view.emb (ix3 (0 : Fin 1) k f)) = _
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 4096 + 1 * f.val = f.val; omega
  · intro i h
    show V m c main_v2 (((cfg0.win 2).blk t).view.emb (ix3 (0 : Fin 1) i h)) = _
    refine congrArg (V m c main_v2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * i.val = i.val; omega
    | ⟨2, _⟩ => show win0_2.index t (2 : Fin 3) * 2048 + 1 * h.val = h.val; omega
  · show win0_3.index t (0 : Fin 3) * 1 + 1 * (j 0).val = win0_3.index t (0 : Fin 3)
    have hj : (j 0).val < 1 := (j 0).isLt
    omega
  · show win0_3.index t (1 : Fin 3) * 128 + 1 * (j 1).val = win0_3.index t (1 : Fin 3) * 128 + (j 1).val
    omega
  · show win0_3.index t (2 : Fin 3) * 2048 + 1 * (j 2).val = (j 2).val
    omega

/-! ## The blocks tile the array -/

/-- An index of the result array is in point `t`'s block iff each coordinate is in the block's range on its axis. -/
theorem mem_blk (t : Fin cfg0.N) (i : S16x1024x2048.Idx) :
    i ∈ ((cfg0.win 3).blk t).view.set ↔ ∀ a : Fin 3, win0_3.index t a * S1x128x2048.size a ≤ (i a).val ∧ (i a).val < win0_3.index t a * S1x128x2048.size a + S1x128x2048.size a := by
  show i ∈ ((View.whole main_v3).slice (win0_3.rect t)).set ↔ _
  rw [View.set_slice_whole, Rect.mem_set_unit]
  exact Iff.rfl

/-- Every index of the result array is in some point's block: row `ρ` of expert `e` in block `(e, ρ / 128)`. -/
theorem covered (i : S16x1024x2048.Idx) : ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 2048 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 2048 ≤ (i 2).val ∧ (i 2).val < win0_3.index t (2 : Fin 3) * 2048 + 2048; omega

/-- THE RESULT ARRAY after the region: the layer of the three arrays as the region finds them. -/
theorem final (c : Dev nD) : (dats m 0 c).arrAt 3 cfg0.N = layerV m c :=
  (dats m 0 c).arrAt_eq_of_cover 3 (layerV m c) (fun t _ => flushed_eq m c t) (covered)

end Cert.KernelIdeal.Arr

end
-- ==== Proof.KernelRun.lean ====
/-
  The kernel program's run, with its result named.

  Before the region the program reshapes the tokens `[16384, 2048] → [16, 1024, 2048]` and changes the two weight
  arrays' float format, which is the identity on extended reals; so the region finds the reshaped tokens and the
  weights themselves.  After the region it reshapes the result array back to `[16384, 2048]`.  Hence the program
  ends with its result at the layer of the reshaped tokens and the weights, reshaped back, and its arguments unchanged.
-/
import proofs.«136551_j37589553774969_2_alg».proof.Proof.KernelArray

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays as the region finds them -/

/-- The tokens, reshaped. -/
theorem V_tokens (c : Dev nD) : (V m c main_v0 : S16x1024x2048.Idx → EReal)
    = shapeCast S16x1024x2048 (m ((c : Thread nD τ).loc main_arg0)) Facts₀.shapeCasts_S16384x2048_S16x1024x2048 := by
  show StableHlo.after hostOps0 (fun b => m (c, b)) (Proc.devRef .tc main_v0) = _
  after_results
  rfl

/-- The fused gate/up weights: a change of float format is the identity on extended reals. -/
theorem V_fused (c : Dev nD) : (V m c main_v1 : S16x2048x4096.Idx → EReal) = m ((c : Thread nD τ).loc main_arg1) := by
  show StableHlo.after hostOps0 (fun b => m (c, b)) (Proc.devRef .tc main_v1) = _
  after_results
  rfl

/-- The down weights likewise. -/
theorem V_down (c : Dev nD) : (V m c main_v2 : S16x2048x2048.Idx → EReal) = m ((c : Thread nD τ).loc main_arg2) := by
  show StableHlo.after hostOps0 (fun b => m (c, b)) (Proc.devRef .tc main_v2) = _
  after_results
  rfl

/-! ## The result -/

/-- The program's result as one function of its argument arrays. -/
def result (c : Dev nD) : S16384x2048.Idx → EReal :=
  shapeCast S16384x2048
    (Cert.Swiglu.swiglu (shapeCast S16x1024x2048 (m ((c : Thread nD τ).loc main_arg0)) Facts₀.shapeCasts_S16384x2048_S16x1024x2048)
      (m ((c : Thread nD τ).loc main_arg1)) (m ((c : Thread nD τ).loc main_arg2)))
    Facts₀.shapeCasts_S16x1024x2048_S16384x2048

/-- The reshape after the region reads the region's result array, which is the layer. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [(Pipeline.withArrays_arr spec0 launch0.win.arr_inj c _ _ 3).trans (final m c)]
  unfold result layerV
  rw [V_tokens, V_fused, V_down]
  rfl

/-- THE RUN: every weakly fair execution terminates with the result at `result` and the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Arr

end
-- ==== Proof.lean ====
/-
  The kernel and its reference compute one function on the extended reals.

  Both programs take 16384 token rows of 2048 features (1024 rows for each of 16 experts) and, per expert, a fused
  gate/up matrix (2048 × 4096) and a down matrix (2048 × 2048).  Row `x` of expert `e` goes to
      ∑ i, (up i · (gate i · σ (gate i))) · dn i h,   gate i = ∑ k, x k · gu k i,   up i = ∑ k, x k · gu k (2048 + i),
  σ the logistic function.  The kernel computes it 128 rows at a time on a 16 × 8 grid, rounding to a narrower float
  format on the way into each matrix product — the identity on extended reals; the reference computes it with two
  batched products and spells `σ(g)` as `1 / (1 + e^(−g))`.  The sums are the same sums in the same order, so the two
  results are equal index by index with no appeal to the inputs' finiteness.

  The three frame claims are the three programs' runs with the results dropped.  The idealized kernel is the kernel's own
  text read on the extended reals, no operation replaced, so `preserves` has nothing to state.
-/
import proofs.«136551_j37589553774969_2_alg».proof.Defs
import proofs.«136551_j37589553774969_2_alg».proof.Proof.Gen.Kernel
import proofs.«136551_j37589553774969_2_alg».proof.Proof.Gen.Kernel.Skeleton
import proofs.«136551_j37589553774969_2_alg».proof.Proof.Gen.Kernel.Launch
import proofs.«136551_j37589553774969_2_alg».proof.Proof.Gen.Kernel.Points
import proofs.«136551_j37589553774969_2_alg».proof.Proof.Gen.Kernel.Frame
import proofs.«136551_j37589553774969_2_alg».proof.Proof.Gen.KernelIdeal
import proofs.«136551_j37589553774969_2_alg».proof.Proof.Gen.KernelIdeal.Skeleton
import proofs.«136551_j37589553774969_2_alg».proof.Proof.Gen.KernelIdeal.Launch
import proofs.«136551_j37589553774969_2_alg».proof.Proof.Gen.KernelIdeal.Points
import proofs.«136551_j37589553774969_2_alg».proof.Proof.Gen.KernelIdeal.Frame
import proofs.«136551_j37589553774969_2_alg».proof.Proof.Gen.ReferenceIdeal
import proofs.«136551_j37589553774969_2_alg».proof.Proof.Gen.Pre_finite_inputs
import proofs.«136551_j37589553774969_2_alg».proof.Proof.Gen.ReferenceIdeal.Run
import proofs.«136551_j37589553774969_2_alg».proof.Proof.Gen.ReferenceIdeal.Read
import proofs.«136551_j37589553774969_2_alg».proof.Proof.ReferenceValue
import proofs.«136551_j37589553774969_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array ends at the layer of its arguments, reshaped; the reference's at its operations' composed
    term, which is the same function; from memories that agree on the arguments the two are equal. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
